-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S32x2048x1024 : Shape := ⟨3, ![32, 2048, 1024]⟩
abbrev S512x1536 : Shape := ⟨2, ![512, 1536]⟩
abbrev S512 : Shape := ⟨1, ![512]⟩
abbrev S1x512 : Shape := ⟨2, ![1, 512]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S32x2048x1024 : S_.BroadcastsInDim S32x2048x1024 (![] : Fin 0 → Fin S32x2048x1024.rank)
  reducesTo_S32x2048x1024_S_d0_1_2 : S32x2048x1024.ReducesTo [0, 1, 2] S_
  bcast_S_S512x1536 : S_.BroadcastsInDim S512x1536 (![] : Fin 0 → Fin S512x1536.rank)
  reducesTo_S512x1536_S_d0_1 : S512x1536.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  main_v23

def fn {F : FTy → Type} [FloatOps F] (main_arg0 : FVec F S32x512 .f32) (main_arg1 : FVec F S32x2048x1024 .f32) (main_arg2 : FVec F S512x1536 .f32) (main_arg3 : FVec F S512 .f32) (main_arg4 : FVec F S1x512 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S32x2048x1024 .f32 := Host.absf main_arg1
  let main_cst_0 : FVec F S_ .f32 := constant S_ .f32 0x7F800000#32
  let main_v5 : FVec F S32x2048x1024 .f32 := broadcastInDim S32x2048x1024 ![] bcast_S_S32x2048x1024 main_cst_0
  let main_v6 : IVec S32x2048x1024 1 := cmpf .olt main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : IVec S_ 1 := andi main_v3 main_v7
  let main_v9 : FVec F S512x1536 .f32 := Host.absf main_arg2
  let main_cst_2 : FVec F S_ .f32 := constant S_ .f32 0x7F800000#32
  let main_v10 : FVec F S512x1536 .f32 := broadcastInDim S512x1536 ![] bcast_S_S512x1536 main_cst_2
  let main_v11 : IVec S512x1536 1 := cmpf .olt main_v9 main_v10
  let main_c_3 : IVec S_ 1 := constantI S_ 1 1#1
  let main_v12 : IVec S_ 1 := (fun x v => Host.reduce IntOp.andi x v reducesTo_S512x1536_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S32x512 : Shape := ⟨2, ![32, 512]⟩
abbrev S32x2048x1024 : Shape := ⟨3, ![32, 2048, 1024]⟩
abbrev S512x1536 : Shape := ⟨2, ![512, 1536]⟩
abbrev S512 : Shape := ⟨1, ![512]⟩
abbrev S1x512 : Shape := ⟨2, ![1, 512]⟩
abbrev S512x512 : Shape := ⟨2, ![512, 512]⟩
abbrev S512x1024 : Shape := ⟨2, ![512, 1024]⟩
abbrev S32x1x512 : Shape := ⟨3, ![32, 1, 512]⟩
abbrev S32x1x2048 : Shape := ⟨3, ![32, 1, 2048]⟩
abbrev S1x512x1024 : Shape := ⟨3, ![1, 512, 1024]⟩
abbrev S1x1x512 : Shape := ⟨3, ![1, 1, 512]⟩
abbrev S32x2048 : Shape := ⟨2, ![32, 2048]⟩
abbrev S_ : Shape := ⟨0, ![]⟩
abbrev S32 : Shape := ⟨1, ![32]⟩
abbrev S32x1 : Shape := ⟨2, ![32, 1]⟩

abbrev nBuf : Space → Nat
  | .hbm => 27
  | .vmem => 9
  | .smem => 0
  | _ => 0

abbrev bufTy : (tb : Table) → Fin (tcTables nBuf tb) → BufTy
  | .hbm, ⟨0, _⟩ => ⟨S32x512, .f32⟩
  | .hbm, ⟨1, _⟩ => ⟨S32x2048x1024, .f32⟩
  | .hbm, ⟨2, _⟩ => ⟨S512x1536, .f32⟩
  | .hbm, ⟨3, _⟩ => ⟨S512, .f32⟩
  | .hbm, ⟨4, _⟩ => ⟨S1x512, .f32⟩
  | .hbm, ⟨5, _⟩ => ⟨S512x512, .f32⟩
  | .hbm, ⟨6, _⟩ => ⟨S512x1024, .f32⟩
  | .hbm, ⟨7, _⟩ => ⟨S512x512, .f32⟩
  | .hbm, ⟨8, _⟩ => ⟨S32x512, .f32⟩
  | .hbm, ⟨9, _⟩ => ⟨S512, .f32⟩
  | .hbm, ⟨10, _⟩ => ⟨S32x1x512, .f32⟩
  | .hbm, ⟨11, _⟩ => ⟨S32x1x2048, .f32⟩
  | .hbm, ⟨12, _⟩ => ⟨S32x2048, .f32⟩
  | .hbm, ⟨13, _⟩ => ⟨S_, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32x1, .f32⟩
  | .hbm, ⟨19, _⟩ => ⟨S32x2048, .f32⟩
  | .hbm, ⟨20, _⟩ => ⟨S32x2048, .f32⟩
  | .hbm, ⟨21, _⟩ => ⟨S32x2048, .f32⟩
  | .hbm, ⟨22, _⟩ => ⟨S_, .f32⟩
  | .hbm, ⟨23, _⟩ => ⟨S32, .f32⟩
  | .hbm, ⟨24, _⟩ => ⟨S32x1, .f32⟩
  | .hbm, ⟨25, _⟩ => ⟨S32x2048, .f32⟩
  | .hbm, ⟨26, _⟩ => ⟨S32x2048, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S1x1x512, .f32⟩
  | .local _ .vmem, ⟨4, _⟩ => ⟨S1x1x512, .f32⟩
  | .local _ .vmem, ⟨5, _⟩ => ⟨S512, .f32⟩
  | .local _ .vmem, ⟨6, _⟩ => ⟨S512, .f32⟩
  | .local _ .vmem, ⟨7, _⟩ => ⟨S1x1x512, .f32⟩
  | .local _ .vmem, ⟨8, _⟩ => ⟨S1x1x512, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S512x1536_S512x512_0_0 : S512x1536.Slices ![0, 0] S512x512
  slices_S512x1536_S512x1024_0_512 : S512x1536.Slices ![0, 512] S512x1024
  transposes_S512x512_S512x512_1_0 : S512x512.Transposes [1, 0] S512x512
  shapeCasts_S1x512_S512 : S1x512.ShapeCasts S512
  bcast_S32x512_S32x1x512_0_2 : S32x512.BroadcastsInDim S32x1x512 (![0, 2] : Fin 2 → Fin S32x1x512.rank)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  shapeCasts_S512_S512 : S512.ShapeCasts S512
  reduces_S512x512_S512 : S512x512.Reduces [1] S512
  shapeCasts_S1x1x512_S1x512 : S1x1x512.ShapeCasts S1x512
  shapeCasts_S1x512_S1x1x512 : S1x512.ShapeCasts S1x1x512
  shapeCasts_S32x1x2048_S32x2048 : S32x1x2048.ShapeCasts S32x2048
  reducesTo_S32x2048_S32_d1 : S32x2048.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x2048_0_1 : S32x1.BroadcastsInDim S32x2048 (![0, 1] : Fin 2 → Fin S32x2048.rank)
  dot_S32x512_S512x512_S32x512_1_0_0_1_n_n_wf : DotDims.WF S32x512 S512x512 S32x512 [1] [0] [0] [1] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x2048x1024.size a
  hwx0_0 : ∀ i : grid0.Coords, EltTy.bits .f32 = 32 ∨ (Rect.block (s := S32x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S32x1x512.size a
  hwx0_2 : ∀ i : grid0.Coords, EltTy.bits .f32 = 32 ∨ (Rect.block (s := S32x1x512) S1x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S32x1x2048.size a
  hwx0_5 : ∀ i : grid0.Coords, EltTy.bits .f32 = 32 ∨ (Rect.block (s := S32x1x2048) S1x1x512.size (cc0_transform_5 i) (hinb0_5 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512 : Shape := ⟨2, ![32, 512]⟩
abbrev S32x2048x1024 : Shape := ⟨3, ![32, 2048, 1024]⟩
abbrev S512x1536 : Shape := ⟨2, ![512, 1536]⟩
abbrev S512 : Shape := ⟨1, ![512]⟩
abbrev S1x512 : Shape := ⟨2, ![1, 512]⟩
abbrev S512x512 : Shape := ⟨2, ![512, 512]⟩
abbrev S512x1024 : Shape := ⟨2, ![512, 1024]⟩
abbrev S32x2048x512 : Shape := ⟨3, ![32, 2048, 512]⟩
abbrev S32x1x512 : Shape := ⟨3, ![32, 1, 512]⟩
abbrev S1x1x512 : Shape := ⟨3, ![1, 1, 512]⟩
abbrev S32x2048x1 : Shape := ⟨3, ![32, 2048, 1]⟩
abbrev S32x2048 : Shape := ⟨2, ![32, 2048]⟩
abbrev S_ : Shape := ⟨0, ![]⟩
abbrev S32 : Shape := ⟨1, ![32]⟩
abbrev S32x1 : Shape := ⟨2, ![32, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S32x2048x1024, .f32⟩
  | .hbm, ⟨2, _⟩ => ⟨S512x1536, .f32⟩
  | .hbm, ⟨3, _⟩ => ⟨S512, .f32⟩
  | .hbm, ⟨4, _⟩ => ⟨S1x512, .f32⟩
  | .hbm, ⟨5, _⟩ => ⟨S512x512, .f32⟩
  | .hbm, ⟨6, _⟩ => ⟨S512x1024, .f32⟩
  | .hbm, ⟨7, _⟩ => ⟨S32x512, .f32⟩
  | .hbm, ⟨8, _⟩ => ⟨S32x2048x512, .f32⟩
  | .hbm, ⟨9, _⟩ => ⟨S32x1x512, .f32⟩
  | .hbm, ⟨10, _⟩ => ⟨S32x2048x512, .f32⟩
  | .hbm, ⟨11, _⟩ => ⟨S32x2048x512, .f32⟩
  | .hbm, ⟨12, _⟩ => ⟨S1x1x512, .f32⟩
  | .hbm, ⟨13, _⟩ => ⟨S32x2048x512, .f32⟩
  | .hbm, ⟨14, _⟩ => ⟨S32x2048x512, .f32⟩
  | .hbm, ⟨15, _⟩ => ⟨S32x2048x512, .f32⟩
  | .hbm, ⟨16, _⟩ => ⟨S32x2048x1, .f32⟩
  | .hbm, ⟨17, _⟩ => ⟨S32x2048, .f32⟩
  | .hbm, ⟨18, _⟩ => ⟨S_, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32x1, .f32⟩
  | .hbm, ⟨24, _⟩ => ⟨S32x2048, .f32⟩
  | .hbm, ⟨25, _⟩ => ⟨S32x2048, .f32⟩
  | .hbm, ⟨26, _⟩ => ⟨S32x2048, .f32⟩
  | .hbm, ⟨27, _⟩ => ⟨S_, .f32⟩
  | .hbm, ⟨28, _⟩ => ⟨S32, .f32⟩
  | .hbm, ⟨29, _⟩ => ⟨S32x1, .f32⟩
  | .hbm, ⟨30, _⟩ => ⟨S32x2048, .f32⟩
  | .hbm, ⟨31, _⟩ => ⟨S32x2048, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  slices_S512x1536_S512x512_0_0 : S512x1536.Slices ![0, 0] S512x512
  slices_S512x1536_S512x1024_0_512 : S512x1536.Slices ![0, 512] S512x1024
  bcast_S32x512_S32x1x512_0_2 : S32x512.BroadcastsInDim S32x1x512 (![0, 2] : Fin 2 → Fin S32x1x512.rank)
  bcast_S32x1x512_S32x2048x512_0_1_2 : S32x1x512.BroadcastsInDim S32x2048x512 (![0, 1, 2] : Fin 3 → Fin S32x2048x512.rank)
  bcast_S512_S1x1x512_2 : S512.BroadcastsInDim S1x1x512 (![2] : Fin 1 → Fin S1x1x512.rank)
  bcast_S1x1x512_S32x2048x512_0_1_2 : S1x1x512.BroadcastsInDim S32x2048x512 (![0, 1, 2] : Fin 3 → Fin S32x2048x512.rank)
  shapeCasts_S32x2048x1_S32x2048 : S32x2048x1.ShapeCasts S32x2048
  reducesTo_S32x2048_S32_d1 : S32x2048.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x2048_0_1 : S32x1.BroadcastsInDim S32x2048 (![0, 1] : Fin 2 → Fin S32x2048.rank)
  dot_S32x512_S512x512_S32x512_1_1_0_0_n_n_wf : DotDims.WF S32x512 S512x512 S32x512 [1] [1] [0] [0] [] []
  dot_S32x2048x1024_S512x1024_S32x2048x512_2_1_01_0_n_n_wf : DotDims.WF S32x2048x1024 S512x1024 S32x2048x512 [2] [1] [0, 1] [0] [] []
  dot_S32x2048x512_S1x512_S32x2048x1_2_1_01_0_n_n_wf : DotDims.WF S32x2048x512 S1x512 S32x2048x1 [2] [1] [0, 1] [0] [] []

variable [Facts₀]

def dot_S32x512_S512x512_S32x512_1_1_0_0_n_n : DotDims S32x512 S512x512 S32x512 where
  lhsContracting := [1]
  rhsContracting := [1]
  lhsNonContracting := [0]
  rhsNonContracting := [0]
  lhsBatch := []
  rhsBatch := []
  wf := dot_S32x512_S512x512_S32x512_1_1_0_0_n_n_wf
def dot_S32x2048x1024_S512x1024_S32x2048x512_2_1_01_0_n_n : DotDims S32x2048x1024 S512x1024 S32x2048x512 where
  lhsContracting := [2]
  rhsContracting := [1]
  lhsNonContracting := [0, 1]
  rhsNonContracting := [0]
  lhsBatch := []
  rhsBatch := []
  wf := dot_S32x2048x1024_S512x1024_S32x2048x512_2_1_01_0_n_n_wf
def dot_S32x2048x512_S1x512_S32x2048x1_2_1_01_0_n_n : DotDims S32x2048x512 S1x512 S32x2048x1 where
  lhsContracting := [2]
  rhsContracting := [1]
  lhsNonContracting := [0, 1]
  rhsNonContracting := [0]
  lhsBatch := []
  rhsBatch := []
  wf := dot_S32x2048x512_S1x512_S32x2048x1_2_1_01_0_n_n_wf

class Facts : Prop extends Facts₀ where

variable [Facts]
-- ==== Proof.LibTransposedMatmul.lean ====
/-
  A matrix product whose right operand is contracted on its second axis, read at coordinates.

  For the contraction `[M, K] × [N, K] → [M, N]` (each operand contracted on its second axis, no batch axis),
  accumulated into the zero matrix, the entry `(r, c)` of the result is `Σ_k lhs (r, k) · rhs (c, k)` on the extended
  reals, at any extents: row `r` of the left operand against row `c` of the right one — the product `A · Bᵀ` with no
  transpose ever formed. The one contraction coordinate `k` runs over `Fin K`.
-/
import Idealize.ShloMosaic.Lib.ValueIdx
import Idealize.ShloMosaic.PureOps.Ideal.Laws

namespace Cert.TransposedMatmul

open Idealize.ShloMosaic Idealize.ShloMosaic.ValueIdx

variable {M K N : ℕ}

/-- The left operand's row coordinate is the result's row coordinate. -/
theorem lhs_row (j : (⟨2, ![M, N]⟩ : Shape).Idx) (q : (DotDims.transposedRhs M K N).contr.Idx) :
    ((DotDims.transposedRhs M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand's row coordinate is the result's column coordinate. -/
theorem rhs_row (j : (⟨2, ![M, N]⟩ : Shape).Idx) (q : (DotDims.transposedRhs M K N).contr.Idx) :
    ((DotDims.transposedRhs M K N).rhsIdx j q (0 : Fin (⟨2, ![N, K]⟩ : Shape).rank)).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- The product into the zero matrix, at `(r, c)`: the sum over `k` of `lhs (r, k) · rhs (c, k)`. -/
theorem transposedRhs_apply {φ₁ φ₂ : FTy} (lhs : FVec Ideal ⟨2, ![M, K]⟩ φ₁) (rhs : FVec Ideal ⟨2, ![N, K]⟩ φ₂)
    (r : Fin M) (c : Fin N) :
    FloatOps.matmul (DotDims.transposedRhs M K N) none lhs rhs (constant ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k)
      = ix2 c k :=
    funext fun a => Fin.ext (by
      match a with
      | ⟨0, _⟩ => exact rhs_row _ _
      | ⟨1, _⟩ => exact ((DotDims.transposedRhs M K N).rhsIdx_val_of_single rfl _ _).trans hk)
  rw [el, er]

end Cert.TransposedMatmul
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.Scores.lean ====
/-
  Additive (Bahdanau) attention scores, as one function of the five arguments.

  With hidden state `hid [32, 512]`, encoder outputs `enc [32, 2048, 1024]`, attention weight `W [512, 1536]` (its
  first 512 columns act on the hidden state, its last 1024 on an encoder row), bias `[512]` and scoring vector
  `v [1, 512]`, the raw score of encoder row `s` of batch row `b` is

      score b s = Σ_o tanh ((Σ_e enc b s e · W o (512 + e)  +  Σ_h hid b h · W o h)  +  bias o) · v 0 o.

  `tileScore` is that expression over an abstract encoder row, weight block, projected hidden state, bias and scoring
  vector; every program's scores are a `tileScore` of pieces read off its arrays, so two programs agree as soon
  as their pieces do (`tileScore_congr`). Nothing here uses finiteness: only the sums' index sets and the order
  of the two additions matter, and they are the same on both sides.
-/
import Idealize.ShloMosaic.Lib.ValueIdx
import Idealize.ShloMosaic.PureOps.Ideal

noncomputable section

namespace Cert.Attn

open Idealize.ShloMosaic Idealize.ShloMosaic.ValueIdx

/-- One encoder row scored: over 512 output units `o`, `tanh` of (the row against the unit's weights, plus the
    unit's projected hidden state, plus its bias), weighted by the scoring vector. -/
def tileScore (row : Fin 1024 → EReal) (we : Fin 512 → Fin 1024 → EReal) (hp bias vv : Fin 512 → EReal) : EReal :=
  ∑ o : Fin 512, Ideal.tanh (((∑ e : Fin 1024, row e * we o e) + hp o) + bias o) * vv o

theorem tileScore_congr {row row' : Fin 1024 → EReal} {we we' : Fin 512 → Fin 1024 → EReal}
    {hp hp' bias bias' vv vv' : Fin 512 → EReal} (h1 : row = row') (h2 : we = we') (h3 : hp = hp')
    (h4 : bias = bias') (h5 : vv = vv') : tileScore row we hp bias vv = tileScore row' we' hp' bias' vv' := by
  subst h1 h2 h3 h4 h5; rfl

/-- Column `512 + e` of the attention weight: the part that acts on encoder feature `e`. -/
abbrev encCol (e : Fin 1024) : Fin 1536 := ⟨512 + e.val, by have := e.isLt; omega⟩
/-- Column `h` of the attention weight: the part that acts on hidden feature `h`. -/
abbrev hidCol (h : Fin 512) : Fin 1536 := ⟨h.val, by have := h.isLt; omega⟩

/-- The raw attention score of encoder row `s` of batch row `b`. -/
def score (hid : FVec Ideal ⟨2, ![32, 512]⟩ .f32) (enc : FVec Ideal ⟨3, ![32, 2048, 1024]⟩ .f32)
    (W : FVec Ideal ⟨2, ![512, 1536]⟩ .f32) (bias : FVec Ideal ⟨1, ![512]⟩ .f32) (v : FVec Ideal ⟨2, ![1, 512]⟩ .f32)
    (b : Fin 32) (s : Fin 2048) : EReal :=
  tileScore (fun e => enc (ix3 b s e)) (fun o e => W (ix2 o (encCol e)))
    (fun o => ∑ h : Fin 512, hid (ix2 b h) * W (ix2 o (hidCol h))) (fun o => bias (ix1 o)) (fun o => v (ix2 (0 : Fin 1) o))

/-- All the raw scores, as a `[32, 2048]` array. -/
def scores (hid : FVec Ideal ⟨2, ![32, 512]⟩ .f32) (enc : FVec Ideal ⟨3, ![32, 2048, 1024]⟩ .f32)
    (W : FVec Ideal ⟨2, ![512, 1536]⟩ .f32) (bias : FVec Ideal ⟨1, ![512]⟩ .f32) (v : FVec Ideal ⟨2, ![1, 512]⟩ .f32) :
    FVec Ideal ⟨2, ![32, 2048]⟩ .f32 :=
  fun i => score hid enc W bias v (i 0) (i 1)

end Cert.Attn

end
-- ==== Proof.Payload.lean ====
/-
  One grid point of the additive-attention kernel, read entry by entry.

  At a point the body holds a tile of 512 encoder rows (each of 1024 features), the encoder half of the
  attention weight (512 output units by 1024 features), the projected hidden state of the point's batch row
  (512 units), the bias (512) and the scoring vector (512). It writes 512 raw scores, one per encoder row:

      score s = Σ_o tanh ((Σ_e row s e · weight o e  +  hidden o)  +  bias o) · v o.

  The matrix product contracts both operands on their feature axis, so no transpose is formed; the two
  narrowings to bf16 that precede it are the identity on extended reals; the three length-512 vectors are laid
  as one row and spread over the 512 encoder rows; the sum over output units is the lane reduction from zero.
-/
import proofs.«144128_j10943576670580_2_alg».proof.Proof.Gen.KernelIdeal.Skeleton
import proofs.«144128_j10943576670580_2_alg».proof.Proof.LibTransposedMatmul
import proofs.«144128_j10943576670580_2_alg».proof.Proof.LibColumnLayout
import proofs.«144128_j10943576670580_2_alg».proof.Proof.Scores
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- A `[1, 1, a]` array cast to `[a]` reads, at `i`, the operand at `(0, 0, i)`: the two indices have the same
    row-major position. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- The body's one stored value at `(0, 0, s)`: the score of encoder row `s` of the tile. -/
theorem pay_apply (x0 : Vec Ideal S1x512x1024 .f32) (x1 : Vec Ideal S512x1024 .f32) (x2 : Vec Ideal S1x1x512 .f32)
    (x3 x4 : Vec Ideal S512 .f32) (u u' : Fin 1) (s : Fin 512) :
    k0_pay1 (F := Ideal) x0 x1 x2 x3 x4 (ix3 u u' s)
      = Cert.Attn.tileScore (fun e => x0 (ix3 (0 : Fin 1) s e)) (fun o e => x1 (ix2 o e))
          (fun o => x2 (ix3 (0 : Fin 1) (0 : Fin 1) o)) (fun o => x3 (ix1 o)) (fun o => x4 (ix1 o)) := by
  unfold k0_pay1 Cert.Attn.tileScore
  refine (shapeCast_ab_1ab_apply _ _ u u' s).trans ?_
  refine (shapeCast_a_1a_apply _ _ u' s).trans ?_
  refine (Cert.ColumnLayout.rowSum_apply _ _ _ _ s).trans ?_
  refine Finset.sum_congr rfl fun o _ => ?_
  refine congrArg₂ (· * ·) (congrArg Ideal.tanh (congrArg₂ (· + ·) (congrArg₂ (· + ·) ?_ ?_) ?_)) ?_
  · -- the row against the unit's weights: both operands contracted on their feature axis
    refine (Cert.TransposedMatmul.transposedRhs_apply (M := 512) (K := 1024) (N := 512) _ _ s o).trans ?_
    refine Finset.sum_congr rfl fun e _ => congrArg₂ (· * ·) ?_ ?_
    · exact shapeCast_1ab_ab_apply x0 _ s e
    · exact congrFun (shapeCast_self x1 _) (ix2 o e)
  · -- the projected hidden state, one row spread over the encoder rows
    exact (broadcastTo_1b_ab_apply _ _ s o).trans
      ((shapeCast_a_1a_apply _ _ (0 : Fin 1) o).trans (shapeCast_11a_a_apply x2 _ o))
  · -- the bias, likewise
    exact (broadcastTo_1b_ab_apply _ _ s o).trans (shapeCast_a_1a_apply x3 _ (0 : Fin 1) o)
  · -- the scoring vector, likewise
    exact (broadcastTo_1b_ab_apply _ _ s o).trans
      ((shapeCast_a_1a_apply _ _ (0 : Fin 1) o).trans (congrFun (shapeCast_self x4 _) (ix1 o)))

/-- The same at any index of the `[1, 1, 512]` block: only the last coordinate matters. -/
theorem pay_apply' (x0 : Vec Ideal S1x512x1024 .f32) (x1 : Vec Ideal S512x1024 .f32) (x2 : Vec Ideal S1x1x512 .f32)
    (x3 x4 : Vec Ideal S512 .f32) (j : S1x1x512.Idx) :
    k0_pay1 (F := Ideal) x0 x1 x2 x3 x4 j
      = Cert.Attn.tileScore (fun e => x0 (ix3 (0 : Fin 1) (j 2) e)) (fun o e => x1 (ix2 o e))
          (fun o => x2 (ix3 (0 : Fin 1) (0 : Fin 1) o)) (fun o => x3 (ix1 o)) (fun o => x4 (ix1 o)) := by
  obtain ⟨u, u', s, rfl⟩ : ∃ (u u' : Fin 1) (s : Fin 512), j = ix3 u u' s := ⟨j 0, j 1, j 2, eq_ix3 j⟩
  exact pay_apply x0 x1 x2 x3 x4 u u' s

end Cert.KernelIdeal.Hand

end
-- ==== Proof.Blocks.lean ====
/-
  From grid points to the whole array of raw scores.

  The call runs on a 32 × 4 grid: point (b, q) is handed encoder rows 512 q … 512 q + 511 of batch row b, the whole
  encoder half of the weight, batch row b of the projected hidden state, the whole bias and the whole scoring vector,
  and writes entries 512 q … 512 q + 511 of row b of the `[32, 1, 2048]` result. So what a point writes is a block of
  ONE function of the arrays the call is launched on — `rawOut`: entry (b, 0, s) is the score of encoder row s of batch
  row b — and the 128 blocks tile the result, which therefore ends holding `rawOut`.
-/
import proofs.«144128_j10943576670580_2_alg».proof.Proof.Gen.KernelIdeal.Frame
import proofs.«144128_j10943576670580_2_alg».proof.Proof.Payload
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The raw scores over the five arrays the call is launched on: encoder outputs, the encoder half of the weight, the
    projected hidden state (with its unit middle axis), the bias and the scoring vector. -/
def rawOut (enc : Vec Ideal S32x2048x1024 .f32) (we : Vec Ideal S512x1024 .f32) (hp : Vec Ideal S32x1x512 .f32)
    (bias vv : Vec Ideal S512 .f32) : Vec Ideal S32x1x2048 .f32 :=
  fun i => Cert.Attn.tileScore (fun e => enc (ix3 (i 0) (i 2) e)) (fun o e => we (ix2 o e))
    (fun o => hp (ix3 (i 0) (0 : Fin 1) o)) (fun o => bias (ix1 o)) (fun o => vv (ix1 o))

/-- Where each window's block sits at a grid point, relative to the result's block (decided over the 128 points):
    the encoder tile follows the result's batch row and its 512-entry segment; the hidden projection follows the batch
    row; the weight, the bias and the scoring vector are always their one whole block. -/
theorem idx_facts : ∀ t : Fin cfg0.N,
    win0_0.index t (0 : Fin 3) = win0_5.index t (0 : Fin 3) ∧ win0_0.index t (1 : Fin 3) = win0_5.index t (2 : Fin 3)
    ∧ win0_0.index t (2 : Fin 3) = 0
    ∧ win0_1.index t (0 : Fin 2) = 0 ∧ win0_1.index t (1 : Fin 2) = 0
    ∧ win0_2.index t (0 : Fin 3) = win0_5.index t (0 : Fin 3) ∧ win0_2.index t (1 : Fin 3) = 0 ∧ win0_2.index t (2 : Fin 3) = 0
    ∧ win0_3.index t (0 : Fin 1) = 0 ∧ win0_4.index t (0 : Fin 1) = 0
    ∧ win0_5.index t (1 : Fin 3) = 0 ∧ win0_5.index t (0 : Fin 3) ≤ 31 ∧ win0_5.index t (2 : Fin 3) ≤ 3 :=
  (by decide +kernel : ∀ t : Fin grid0.N, _)

/-- Every (batch row, segment) pair is some point's result block. -/
theorem idx_onto : ∀ (q0 : Fin 32) (q2 : Fin 4), ∃ t : Fin cfg0.N, win0_5.index t = ![q0.val, 0, q2.val] :=
  (by decide +kernel : ∀ (q0 : Fin 32) (q2 : Fin 4), ∃ t : Fin grid0.N, win0_5.index t = ![q0.val, 0, q2.val])

/-- The encoder tile at a point: its row `s` is encoder row `512 q + s` of the point's batch row. -/
theorem enc_blk (c : Dev nD) (t : Fin cfg0.N) (s : Fin 512) (e : Fin 1024) (k : S32x2048x1024.Idx)
    (h0 : (k 0).val = win0_5.index t (0 : Fin 3)) (h1 : (k 1).val = win0_5.index t (2 : Fin 3) * 512 + s.val)
    (h2 : (k 2).val = e.val) :
    (iblk m c 0 t : Vec Ideal S1x512x1024 .f32) (ix3 (0 : Fin 1) s e) = V m c main_arg1 k := by
  obtain ⟨e0, e1, e2, -⟩ := idx_facts t
  show V m c main_arg1 (((cfg0.win 0).blk t).view.emb (ix3 (0 : Fin 1) s e)) = V m c main_arg1 k
  refine congrArg (V m c main_arg1) (funext fun a => Fin.ext ?_)
  match a with
  | ⟨0, _⟩ => show win0_0.index t (0 : Fin 3) * 1 + 1 * 0 = (k 0).val; omega
  | ⟨1, _⟩ => show win0_0.index t (1 : Fin 3) * 512 + 1 * s.val = (k 1).val; omega
  | ⟨2, _⟩ => show win0_0.index t (2 : Fin 3) * 1024 + 1 * e.val = (k 2).val; omega

/-- The weight block at a point is the whole encoder half of the weight. -/
theorem we_blk (c : Dev nD) (t : Fin cfg0.N) (o : Fin 512) (e : Fin 1024) :
    (iblk m c 1 t : Vec Ideal S512x1024 .f32) (ix2 o e) = V m c main_v1 (ix2 o e) := by
  obtain ⟨-, -, -, e3, e4, -⟩ := idx_facts t
  show V m c main_v1 (((cfg0.win 1).blk t).view.emb (ix2 o e)) = V m c main_v1 (ix2 o e)
  refine congrArg (V m c main_v1) (funext fun a => Fin.ext ?_)
  match a with
  | ⟨0, _⟩ => show win0_1.index t (0 : Fin 2) * 512 + 1 * o.val = o.val; omega
  | ⟨1, _⟩ => show win0_1.index t (1 : Fin 2) * 1024 + 1 * e.val = e.val; omega

/-- The hidden-projection block at a point is the point's batch row of it. -/
theorem hp_blk (c : Dev nD) (t : Fin cfg0.N) (o : Fin 512) (k : S32x1x512.Idx)
    (h0 : (k 0).val = win0_5.index t (0 : Fin 3)) (h1 : (k 1).val = 0) (h2 : (k 2).val = o.val) :
    (iblk m c 2 t : Vec Ideal S1x1x512 .f32) (ix3 (0 : Fin 1) (0 : Fin 1) o) = V m c main_v5 k := by
  obtain ⟨-, -, -, -, -, e5, e6, e7, -⟩ := idx_facts t
  show V m c main_v5 (((cfg0.win 2).blk t).view.emb (ix3 (0 : Fin 1) (0 : Fin 1) o)) = V m c main_v5 k
  refine congrArg (V m c main_v5) (funext fun a => Fin.ext ?_)
  match a with
  | ⟨0, _⟩ => show win0_2.index t (0 : Fin 3) * 1 + 1 * 0 = (k 0).val; omega
  | ⟨1, _⟩ => show win0_2.index t (1 : Fin 3) * 1 + 1 * 0 = (k 1).val; omega
  | ⟨2, _⟩ => show win0_2.index t (2 : Fin 3) * 512 + 1 * o.val = (k 2).val; omega

/-- The bias block at a point is the whole bias. -/
theorem bias_blk (c : Dev nD) (t : Fin cfg0.N) (o : Fin 512) :
    (iblk m c 3 t : Vec Ideal S512 .f32) (ix1 o) = V m c main_arg3 (ix1 o) := by
  obtain ⟨-, -, -, -, -, -, -, -, e8, -⟩ := idx_facts t
  show V m c main_arg3 (((cfg0.win 3).blk t).view.emb (ix1 o)) = V m c main_arg3 (ix1 o)
  refine congrArg (V m c main_arg3) (funext fun a => Fin.ext ?_)
  match a with
  | ⟨0, _⟩ => show win0_3.index t (0 : Fin 1) * 512 + 1 * o.val = o.val; omega

/-- The scoring-vector block at a point is the whole scoring vector. -/
theorem v_blk (c : Dev nD) (t : Fin cfg0.N) (o : Fin 512) :
    (iblk m c 4 t : Vec Ideal S512 .f32) (ix1 o) = V m c main_v4 (ix1 o) := by
  obtain ⟨-, -, -, -, -, -, -, -, -, e9, -⟩ := idx_facts t
  show V m c main_v4 (((cfg0.win 4).blk t).view.emb (ix1 o)) = V m c main_v4 (ix1 o)
  refine congrArg (V m c main_v4) (funext fun a => Fin.ext ?_)
  match a with
  | ⟨0, _⟩ => show win0_4.index t (0 : Fin 1) * 512 + 1 * o.val = o.val; omega

/-- WHAT POINT `t` WRITES BACK is block `t` of `rawOut` of the arrays as the call finds them. -/
theorem flushed_eq (c : Dev nD) (t : Fin cfg0.N) :
    (dats m 0 c).flushed 5 t = ((cfg0.win 5).blk t).view.read (Elt Ideal)
      (rawOut (V m c main_arg1) (V m c main_v1) (V m c main_v5) (V m c main_arg3) (V m c main_v4)) := by
  show (cfg0.win 5).cut (grid0.coords t) ((dats m 0 c).after 5 t) = _
  rw [after0_5]
  unfold out0_5
  rw [View.canon_unit_zero hz3]
  simp only [View.ld_unit_zero (S := S1x512x1024) hz3, View.ld_unit_zero (S := S512x1024) hz2,
    View.ld_unit_zero (S := S1x1x512) hz3, View.ld_unit_zero (S := S512) hz1]
  obtain ⟨-, -, -, -, -, -, -, -, -, -, f1, -, -⟩ := idx_facts t
  funext j
  show k0_pay1 (iblk m c 0 t) (iblk m c 1 t) (iblk m c 2 t) (iblk m c 3 t) (iblk m c 4 t) j
    = rawOut (V m c main_arg1) (V m c main_v1) (V m c main_v5) (V m c main_arg3) (V m c main_v4)
        (((cfg0.win 5).blk t).view.emb j)
  refine (pay_apply' (iblk m c 0 t) (iblk m c 1 t) (iblk m c 2 t) (iblk m c 3 t) (iblk m c 4 t) j).trans ?_
  unfold rawOut
  have hj0 : (j 0).val < 1 := (j 0).isLt
  have hj1 : (j 1).val < 1 := (j 1).isLt
  refine Cert.Attn.tileScore_congr (funext fun e => ?_) (funext fun o => funext fun e => ?_) (funext fun o => ?_)
    (funext fun o => ?_) (funext fun o => ?_)
  · refine enc_blk m c t (j 2) e _ ?_ ?_ rfl
    · show win0_5.index t (0 : Fin 3) * 1 + 1 * (j 0).val = win0_5.index t (0 : Fin 3); omega
    · show win0_5.index t (2 : Fin 3) * 512 + 1 * (j 2).val = win0_5.index t (2 : Fin 3) * 512 + (j 2).val; omega
  · exact we_blk m c t o e
  · refine hp_blk m c t o _ ?_ rfl rfl
    show win0_5.index t (0 : Fin 3) * 1 + 1 * (j 0).val = win0_5.index t (0 : Fin 3); omega
  · exact bias_blk m c t o
  · exact v_blk m c t o

/-- An index of the result is in point `t`'s block iff each coordinate is in the block's range on its axis. -/
theorem mem_blk (t : Fin cfg0.N) (i : S32x1x2048.Idx) :
    i ∈ ((cfg0.win 5).blk t).view.set ↔ ∀ a : Fin 3, win0_5.index t a * S1x1x512.size a ≤ (i a).val
      ∧ (i a).val < win0_5.index t a * S1x1x512.size a + S1x1x512.size a := by
  show i ∈ ((View.whole main_v6).slice (win0_5.rect t)).set ↔ _
  rw [View.set_slice_whole, Rect.mem_set_unit]
  exact Iff.rfl

/-- The 128 blocks tile the result: entry `(b, 0, s)` is in the block of point `(b, s / 512)`. -/
theorem cover (i : S32x1x2048.Idx) :
    ∃ t : Fin cfg0.N, (cfg0.win 5).flush t = true ∧ i ∈ ((cfg0.win 5).blk t).view.set := by
  have hi0 : (i 0).val < 32 := (i 0).isLt
  have hi1 : (i 1).val < 1 := (i 1).isLt
  have hi2 : (i 2).val < 2048 := (i 2).isLt
  obtain ⟨t, ht⟩ := idx_onto ⟨(i 0).val, hi0⟩ ⟨(i 2).val / 512, by omega⟩
  have q0 : win0_5.index t (0 : Fin 3) = (i 0).val := congrFun ht 0
  have q1 : win0_5.index t (1 : Fin 3) = 0 := congrFun ht 1
  have q2 : win0_5.index t (2 : Fin 3) = (i 2).val / 512 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 512 ≤ (i 2).val ∧ (i 2).val < win0_5.index t (2 : Fin 3) * 512 + 512; omega

/-- THE RESULT ARRAY after the call is `rawOut` of the arrays the call was launched on. -/
theorem final (c : Dev nD) : (dats m 0 c).arrAt 5 cfg0.N
    = rawOut (V m c main_arg1) (V m c main_v1) (V m c main_v5) (V m c main_arg3) (V m c main_v4) :=
  (dats m 0 c).arrAt_eq_of_cover 5 _ (fun t _ => flushed_eq m c t) cover

end Cert.KernelIdeal.Hand

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibHostPlainDot.lean ====
/-
  The host's plain matrix product read at coordinates.

  For the plain contraction `[M, K] × [K, N] → [M, N]` (the left operand contracted on its second axis, the right on
  its first, no batch axis) the host's `dot_general` at entry `(r, c)` is `Σ_k lhs (r, k) · rhs (k, c)` on the extended
  reals, at any extents and any contraction precision: the same sum a kernel's matrix product into a zero
  accumulator is.
-/
import Idealize.ShloMosaic.Lib.ValueIdx
import Idealize.ShloMosaic.Lib.Pipeline.Value
import Idealize.ShloMosaic.PureOps.Ideal.Laws
import proofs.«144128_j10943576670580_2_alg».proof.Proof.LibPlainMatmul

namespace Cert.Lib.HostPlainDot

open Idealize.ShloMosaic Idealize.ShloMosaic.ValueIdx Cert.PlainMatmul

variable {M K N : ℕ}

/-- The host's plain product at `(r, c)`: the sum over `k` of `lhs (r, k) · rhs (k, c)`. -/
theorem hostDot_apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c) = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

variable {α : Type}

/-- A block of columns sliced out of an `[a, b]` array at column offset `off`: entry `(p, q)` is entry `(p, off + q)`. -/
theorem slice_cols_apply {a b b' : ℕ} (off : ℕ) (x : (⟨2, ![a, b]⟩ : Shape).Idx → α)
    (h : (⟨2, ![a, b]⟩ : Shape).Slices ![0, off] ⟨2, ![a, b']⟩) (p : Fin a) (q : Fin b') (hq : off + q.val < b) :
    extractStridedSlice ⟨2, ![a, b']⟩ ![0, off] x h (ix2 p q) = x (ix2 p (⟨off + q.val, hq⟩ : Fin b)) :=
  extractStridedSlice_apply ![0, off] x h (ix2 p q) (ix2 p (⟨off + q.val, hq⟩ : Fin b)) (fun ax => match ax with
    | ⟨0, _⟩ => by show p.val = 0 + p.val; omega
    | ⟨1, _⟩ => by show off + q.val = off + q.val; rfl)

/-- A block of rows sliced out of an `[a, b]` array at row offset `off`: entry `(p, q)` is entry `(off + p, q)`. -/
theorem slice_rows_apply {a a' b : ℕ} (off : ℕ) (x : (⟨2, ![a, b]⟩ : Shape).Idx → α)
    (h : (⟨2, ![a, b]⟩ : Shape).Slices ![off, 0] ⟨2, ![a', b]⟩) (p : Fin a') (q : Fin b) (hp : off + p.val < a) :
    extractStridedSlice ⟨2, ![a', b]⟩ ![off, 0] x h (ix2 p q) = x (ix2 (⟨off + p.val, hp⟩ : Fin a) q) :=
  extractStridedSlice_apply ![off, 0] x h (ix2 p q) (ix2 (⟨off + p.val, hp⟩ : Fin a) q) (fun ax => match ax with
    | ⟨0, _⟩ => by show off + p.val = off + p.val; rfl
    | ⟨1, _⟩ => by show q.val = 0 + q.val; omega)

end Cert.Lib.HostPlainDot
-- ==== Proof.HostSide.lean ====
/-
  The arrays the call is launched on, in terms of the arguments.

  Before the call the host slices the attention weight into its hidden half (first 512 columns) and its encoder half
  (last 1024), multiplies the hidden state by the transposed hidden half, gives the product a unit middle axis, and
  flattens the scoring vector. Read entry by entry:
    • the encoder half at (o, e) is the weight at (o, 512 + e);
    • the projected hidden state at (b, 0, o) is Σ_h hid b h · W o h — the transpose only swaps the two coordinates the
      contraction reads;
    • the flattened scoring vector at o is the scoring vector at (0, o).
  Hence the raw scores the call leaves (`rawOut` of those arrays) are the attention scores, entry (b, 0, s) being
  `score b s`; and dropping the unit axis gives the `[32, 2048]` array of scores.
-/
import proofs.«144128_j10943576670580_2_alg».proof.Proof.Gen.KernelIdeal.Frame
import proofs.«144128_j10943576670580_2_alg».proof.Proof.Blocks
import proofs.«144128_j10943576670580_2_alg».proof.Proof.LibHostPlainDot
import proofs.«144128_j10943576670580_2_alg».proof.Proof.Scores
import Idealize.ShloMosaic.Lib.Pipeline.Value
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The encoder half of the weight, as the call finds it. -/
theorem V_we (c : Dev nD) : (V m c main_v1 : S512x1024.Idx → EReal)
    = extractStridedSlice S512x1024 ![0, 512] (m ((c : Thread nD τ).loc main_arg2)) slices_S512x1536_S512x1024_0_512 := by
  show StableHlo.after hostOps0 (fun b => m (c, b)) (Proc.devRef .tc main_v1) = _
  after_results <;> rfl

/-- The projected hidden state, as the call finds it. -/
theorem V_hp (c : Dev nD) : (V m c main_v5 : S32x1x512.Idx → EReal)
    = broadcastInDim S32x1x512 ![0, 2] bcast_S32x512_S32x1x512_0_2
        (Host.dotGeneral (F := Ideal) (φ₁ := .f32) (φ₂ := .f32) dot_S32x512_S512x512_S32x512_1_0_0_1_n_n none (m ((c : Thread nD τ).loc main_arg0))
          (transpose S512x512 [1, 0]
            (extractStridedSlice S512x512 ![0, 0] (m ((c : Thread nD τ).loc main_arg2)) slices_S512x1536_S512x512_0_0)
            transposes_S512x512_S512x512_1_0)) := by
  show StableHlo.after hostOps0 (fun b => m (c, b)) (Proc.devRef .tc main_v5) = _
  after_results <;> rfl

/-- The flattened scoring vector, as the call finds it. -/
theorem V_vv (c : Dev nD) : (V m c main_v4 : S512.Idx → EReal)
    = shapeCast S512 (m ((c : Thread nD τ).loc main_arg4)) shapeCasts_S1x512_S512 := by
  show StableHlo.after hostOps0 (fun b => m (c, b)) (Proc.devRef .tc main_v4) = _
  after_results <;> rfl

/-- The encoder half at `(o, e)` is the weight at `(o, 512 + e)`. -/
theorem we_apply (W : FVec Ideal S512x1536 .f32) (o : Fin 512) (e : Fin 1024) :
    extractStridedSlice S512x1024 ![0, 512] W slices_S512x1536_S512x1024_0_512 (ix2 o e) = W (ix2 o (Cert.Attn.encCol e)) :=
  Cert.Lib.HostPlainDot.slice_cols_apply 512 W _ o e _

/-- The projected hidden state at `(b, 0, o)`: the hidden row against the unit's hidden weights. -/
theorem hp_apply (hid : FVec Ideal S32x512 .f32) (W : FVec Ideal S512x1536 .f32) (b : Fin 32) (o : Fin 512) :
    broadcastInDim S32x1x512 ![0, 2] bcast_S32x512_S32x1x512_0_2
        (Host.dotGeneral (F := Ideal) (φ₁ := .f32) (φ₂ := .f32) dot_S32x512_S512x512_S32x512_1_0_0_1_n_n none hid
          (transpose S512x512 [1, 0] (extractStridedSlice S512x512 ![0, 0] W slices_S512x1536_S512x512_0_0)
            transposes_S512x512_S512x512_1_0)) (ix3 b (0 : Fin 1) o)
      = ∑ h : Fin 512, hid (ix2 b h) * W (ix2 o (Cert.Attn.hidCol h)) := by
  refine (broadcastInDim_apply _ bcast_S32x512_S32x1x512_0_2 _ (ix3 b (0 : Fin 1) o) (ix2 b o) (fun a => match a with
    | ⟨0, _⟩ => by show b.val = if (32 : Nat) = 1 then 0 else b.val; rw [if_neg (by decide)]
    | ⟨1, _⟩ => by show o.val = if (512 : Nat) = 1 then 0 else o.val; rw [if_neg (by decide)])).trans ?_
  refine (Cert.Lib.HostPlainDot.hostDot_apply (M := 32) (K := 512) (N := 512) none hid _ b o).trans ?_
  refine Finset.sum_congr rfl fun h _ => congrArg (hid (ix2 b h) * ·) ?_
  refine (transpose_ix2_apply _ _ h o).trans ?_
  refine (Cert.Lib.HostPlainDot.slice_cols_apply 0 W _ o h (by have := h.isLt; omega)).trans ?_
  exact congrArg W (funext fun a => Fin.ext (by
    match a with
    | ⟨0, _⟩ => rfl
    | ⟨1, _⟩ => show 0 + h.val = h.val; omega))

/-- THE RAW SCORES the call leaves are the attention scores: entry `(b, 0, s)` is `score b s`. -/
theorem rawOut_eq (c : Dev nD) :
    rawOut (V m c main_arg1) (V m c main_v1) (V m c main_v5) (V m c main_arg3) (V m c main_v4)
      = fun i => Cert.Attn.score (m ((c : Thread nD τ).loc main_arg0)) (m ((c : Thread nD τ).loc main_arg1))
          (m ((c : Thread nD τ).loc main_arg2)) (m ((c : Thread nD τ).loc main_arg3)) (m ((c : Thread nD τ).loc main_arg4))
          (i 0) (i 2) := by
  funext i
  unfold rawOut Cert.Attn.score
  rw [V_main_arg1, V_main_arg3, V_we, V_hp, V_vv]
  refine Cert.Attn.tileScore_congr rfl (funext fun o => funext fun e => ?_) (funext fun o => ?_) rfl (funext fun o => ?_)
  · exact we_apply _ o e
  · exact hp_apply _ _ (i 0) o
  · exact shapeCast_1a_a_apply _ _ o

/-- With the unit axis dropped: the `[32, 2048]` array of attention scores. -/
theorem scores_eq (c : Dev nD) :
    shapeCast S32x2048 (rawOut (V m c main_arg1) (V m c main_v1) (V m c main_v5) (V m c main_arg3) (V m c main_v4))
        shapeCasts_S32x1x2048_S32x2048
      = Cert.Attn.scores (m ((c : Thread nD τ).loc main_arg0)) (m ((c : Thread nD τ).loc main_arg1))
          (m ((c : Thread nD τ).loc main_arg2)) (m ((c : Thread nD τ).loc main_arg3)) (m ((c : Thread nD τ).loc main_arg4)) := by
  rw [rawOut_eq]
  funext i
  obtain ⟨b, s, rfl⟩ : ∃ (b : Fin 32) (s : Fin 2048), i = ix2 b s := ⟨i 0, i 1, eq_ix2 i⟩
  refine (shapeCast_apply _ shapeCasts_S32x1x2048_S32x2048 (ix2 b s) (ix3 b (0 : Fin 1) s) (by
    rw [Shape.rowMajor_val_three, Shape.rowMajor_val_two]
    show (b.val * 1 + 0) * 2048 + s.val = b.val * 2048 + s.val
    omega)).trans ?_
  rfl

end Cert.KernelIdeal.Hand

end
-- ==== Proof.Tail.lean ====
/-
  The softmax over each batch row's 2048 scores, as the host computes it.

  Both programs finish with the same host operations on their `[32, 2048]` array of raw scores: the row maximum
  (started from −∞, and clamped against −∞ once more), subtracted from every entry; the exponential; the row sum from
  zero; the quotient. It is carried here as one function of the scores and never opened: two programs whose raw
  scores agree have equal softmax rows.
-/
import proofs.«144128_j10943576670580_2_alg».proof.KernelIdeal
import proofs.«144128_j10943576670580_2_alg».proof.Proof.Gen.KernelIdeal
import Idealize.ShloMosaic.PureOps.Ideal

noncomputable section

namespace Cert.KernelIdeal.Hand

open Cert.KernelIdeal Cert.KernelIdeal.Facts₀ Idealize.ShloMosaic

/-- Each row's maximum against −∞, placed back on every entry of the row. -/
def rowTop (x : FVec Ideal S32x2048 .f32) : FVec Ideal S32x2048 .f32 :=
  broadcastInDim S32x2048 ![0, 1] bcast_S32x1_S32x2048_0_1 (broadcastInDim S32x1 ![0] bcast_S32_S32x1_0
    (maximumf (broadcastInDim S32 ![] bcast_S_S32 (constant (F := Ideal) S_ .f32 0xFF800000#32))
      (Host.reduce FloatOps.maximumf x (constant (F := Ideal) S_ .f32 0xFF800000#32) reducesTo_S32x2048_S32_d1 h_S_)))

/-- The row softmax: exponentials of the entries less the row's top, over their row sum. -/
def rowSoftmax (x : FVec Ideal S32x2048 .f32) : FVec Ideal S32x2048 .f32 :=
  Host.divf (F := Ideal) (Host.exp (F := Ideal) (subf x (rowTop x)))
    (broadcastInDim S32x2048 ![0, 1] bcast_S32x1_S32x2048_0_1 (broadcastInDim S32x1 ![0] bcast_S32_S32x1_0
      (Host.reduceAdd (F := Ideal) (Host.exp (F := Ideal) (subf x (rowTop x))) (constant (F := Ideal) S_ .f32 0x00000000#32)
        reducesTo_S32x2048_S32_d1 h_S_)))

end Cert.KernelIdeal.Hand

end
-- ==== Proof.KernelRun.lean ====
/-
  The kernel program's run, read: its result is the row softmax of the attention scores.

  The generated frame run leaves the call's `[32, 1, 2048]` result at what the 128 grid points wrote (the raw scores),
  and the result buffer of the program at what the host lines after the call compute from it: the unit axis dropped,
  then the row softmax. The arguments end as launched.
-/
import proofs.«144128_j10943576670580_2_alg».proof.Proof.Gen.KernelIdeal.Frame
import proofs.«144128_j10943576670580_2_alg».proof.Proof.Blocks
import proofs.«144128_j10943576670580_2_alg».proof.Proof.HostSide
import proofs.«144128_j10943576670580_2_alg».proof.Proof.Tail
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The program's result after the host lines that follow the call: the row softmax of the attention scores. -/
theorem out_eq (c : Dev nD) :
    Pipeline.afterTail₀ cfgs (dats m) 0 (V0 m) [hostOps1] c main_v18
      = rowSoftmax (Cert.Attn.scores (m ((c : Thread nD τ).loc main_arg0)) (m ((c : Thread nD τ).loc main_arg1))
          (m ((c : Thread nD τ).loc main_arg2)) (m ((c : Thread nD τ).loc main_arg3)) (m ((c : Thread nD τ).loc main_arg4))) := by
  unfold Pipeline.afterTail₀
  show StableHlo.after hostOps1 _ (Proc.devRef .tc main_v18) = _
  after_results
  -- the call's result array, as the lines after the call find it, is what the grid points wrote
  have hw : Pipeline.withArrays (cfgs 0).spec c (V0 m c) (fun w => (dats m 0 c).arrAt w (cfgs 0).N)
        (Proc.devRef .tc main_v6)
      = rawOut (V m c main_arg1) (V m c main_v1) (V m c main_v5) (V m c main_arg3) (V m c main_v4) :=
    (Pipeline.withArrays_arr spec0 launch0.win.arr_inj c (V0 m c) (fun w => (dats m 0 c).arrAt w cfg0.N) 5).trans
      (final m c)
  show rowSoftmax (shapeCast S32x2048
      (Pipeline.withArrays (cfgs 0).spec c (V0 m c) (fun w => (dats m 0 c).arrAt w (cfgs 0).N) (Proc.devRef .tc main_v6))
      shapeCasts_S32x1x2048_S32x2048) = _
  rw [hw, scores_eq]

/-- THE RUN, read: every weakly fair execution of the kernel's program ends with its result at the row softmax of
    the attention scores of the arguments, the arguments unchanged. -/
theorem run : θ_run defs (onTc (τ := τ) (main (F := Ideal))) ⟨m, fun _ => 0, ρ⟩ fun r => ∀ c : Dev nD,
      r.2.mem ((c.tc : Thread nD τ).loc main_v18)
        = rowSoftmax (Cert.Attn.scores (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v18 (Pipeline.mem_restRefs_of main_v18 (by decide) (by decide))).trans (out_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Hand

end
-- ==== Proof.RefScores.lean ====
/-
  The reference's raw scores are the attention scores.

  The reference computes them with three contractions on the host: the hidden state against the first 512 columns
  of the weight (for every batch row and output unit), every encoder row against the last 1024 columns, and the
  `tanh` of their sum plus the bias against the scoring vector. Read entry by entry, each contraction is the sum over
  its one contracted coordinate; the two broadcasts place the hidden projection and the bias on every encoder row;
  the final reshape drops the unit axis the third contraction leaves. What remains is `score b s`, term for term.
-/
import proofs.«144128_j10943576670580_2_alg».proof.Proof.Gen.ReferenceIdeal.Read
import proofs.«144128_j10943576670580_2_alg».proof.Proof.Scores

noncomputable section

namespace Cert.ReferenceIdeal.Hand

open Cert.ReferenceIdeal Cert.ReferenceIdeal.Read Idealize.ShloMosaic Idealize.ShloMosaic.ValueIdx

/-- The array the reference hands to its softmax is the array of attention scores. -/
theorem ref_scores (x0 : (⟨S32x512, .f32⟩ : BufTy).Contents (Elt Ideal)) (x1 : (⟨S32x2048x1024, .f32⟩ : BufTy).Contents (Elt Ideal))
    (x2 : (⟨S512x1536, .f32⟩ : BufTy).Contents (Elt Ideal)) (x3 : (⟨S512, .f32⟩ : BufTy).Contents (Elt Ideal))
    (x4 : (⟨S1x512, .f32⟩ : BufTy).Contents (Elt Ideal)) :
    val_main_v12 (F := Ideal) x0 x1 x2 x3 x4 = Cert.Attn.scores x0 x1 x2 x3 x4 := by
  funext i
  obtain ⟨b, s, rfl⟩ : ∃ (b : Fin 32) (s : Fin 2048), i = ix2 b s := ⟨i 0, i 1, eq_ix2 i⟩
  -- the reshape [32, 2048, 1] → [32, 2048] reads (b, s) at (b, s, 0)
  have hi : idx_main_v12 (ix2 b s) = ix3 b s (0 : Fin 1) := funext fun a => Fin.ext (by
    have hb := b.isLt
    have hs := s.isLt
    match a with
    | ⟨0, _⟩ => show (b.val * 2048 + s.val) / 2048 = b.val; omega
    | ⟨1, _⟩ => show (b.val * 2048 + s.val) / 1 % 2048 = s.val; omega
    | ⟨2, _⟩ => rfl)
  rw [val_main_v12_apply, hi, val_main_v11_apply]
  show _ = Cert.Attn.score x0 x1 x2 x3 x4 b s
  unfold Cert.Attn.score Cert.Attn.tileScore
  refine Finset.sum_congr rfl fun o _ => ?_
  rw [val_main_v10_apply, val_main_v9_apply, val_main_v6_apply, val_main_v3_apply, val_main_v5_apply,
    val_main_v4_apply, val_main_v2_apply, val_main_v8_apply, val_main_v7_apply]
  simp only [val_main_v0_apply, val_main_v1_apply, Ideal.hostUnary_tanh_def, Ideal.addf_def]
  refine congrArg₂ (· * ·) (congrArg Ideal.tanh (congrArg₂ (· + ·) (congrArg₂ (· + ·)
    (Finset.sum_congr rfl fun e _ => congrArg₂ (· * ·) (congrArg x1 ?_) (congrArg x2 ?_))
    (Finset.sum_congr rfl fun h _ => congrArg₂ (· * ·) (congrArg x0 ?_) (congrArg x2 ?_))) (congrArg x3 ?_))) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)
  · exact funext fun a => Fin.ext (by match a with | ⟨0, _⟩ => rfl | ⟨1, _⟩ => rfl)

end Cert.ReferenceIdeal.Hand

end
-- ==== Proof.RefTail.lean ====
/-
  The reference ends with the same row softmax.

  The reference's last eleven host operations are, operation for operation, the row softmax the kernel's program
  applies to its own raw scores: its result is `rowSoftmax` of the array it hands to them.
-/
import proofs.«144128_j10943576670580_2_alg».proof.Proof.Gen.ReferenceIdeal.Read
import proofs.«144128_j10943576670580_2_alg».proof.Proof.Tail

noncomputable section

namespace Cert.ReferenceIdeal.Hand

open Cert.ReferenceIdeal Cert.ReferenceIdeal.Read Idealize.ShloMosaic

/-- The reference's result is the row softmax of its raw scores. -/
theorem ref_tail (x0 : (⟨S32x512, .f32⟩ : BufTy).Contents (Elt Ideal)) (x1 : (⟨S32x2048x1024, .f32⟩ : BufTy).Contents (Elt Ideal))
    (x2 : (⟨S512x1536, .f32⟩ : BufTy).Contents (Elt Ideal)) (x3 : (⟨S512, .f32⟩ : BufTy).Contents (Elt Ideal))
    (x4 : (⟨S1x512, .f32⟩ : BufTy).Contents (Elt Ideal)) :
    val_main_v23 (F := Ideal) x0 x1 x2 x3 x4
      = Cert.KernelIdeal.Hand.rowSoftmax (val_main_v12 (F := Ideal) x0 x1 x2 x3 x4) := rfl

end Cert.ReferenceIdeal.Hand

end
-- ==== Proof.lean ====
/- Additive (Bahdanau) attention: the kernel's program and the reference compute the same softmax rows on the
   extended reals.

   Both programs form, for every batch row b and encoder row s, the raw score
       score b s = Σ_o tanh ((Σ_e enc b s e · W o (512 + e)  +  Σ_h hid b h · W o h)  +  bias o) · v 0 o
   and then the softmax of each batch row's 2048 scores. The kernel's program multiplies the hidden state by the
   transposed hidden half of the weight on the host, computes the scores tile by tile on a 32 × 4 grid (a tile's rows
   against the encoder half of the weight, contracted on the feature axis; the sum over output units as a lane
   reduction), drops a unit axis and applies the softmax on the host. The reference uses three host contractions and the
   same softmax. On the extended reals the two narrowings to bf16 are the identity, every contraction is the plain sum
   over its contracted coordinate, and the two additions inside the tanh are grouped the same way on both sides, so the
   scores agree term for term with no appeal to finiteness; the softmax is carried as one function of the scores
   and never opened. The ideal pass rewrote nothing, so the idealized kernel is the kernel's own text. -/
import proofs.«144128_j10943576670580_2_alg».proof.Defs
import proofs.«144128_j10943576670580_2_alg».proof.Proof.Gen.Kernel
import proofs.«144128_j10943576670580_2_alg».proof.Proof.Gen.Kernel.Skeleton
import proofs.«144128_j10943576670580_2_alg».proof.Proof.Gen.Kernel.Launch
import proofs.«144128_j10943576670580_2_alg».proof.Proof.Gen.Kernel.Points
import proofs.«144128_j10943576670580_2_alg».proof.Proof.Gen.Kernel.Frame
import proofs.«144128_j10943576670580_2_alg».proof.Proof.Gen.KernelIdeal
import proofs.«144128_j10943576670580_2_alg».proof.Proof.Gen.KernelIdeal.Skeleton
import proofs.«144128_j10943576670580_2_alg».proof.Proof.Gen.KernelIdeal.Launch
import proofs.«144128_j10943576670580_2_alg».proof.Proof.Gen.KernelIdeal.Points
import proofs.«144128_j10943576670580_2_alg».proof.Proof.Gen.KernelIdeal.Frame
import proofs.«144128_j10943576670580_2_alg».proof.Proof.Gen.ReferenceIdeal
import proofs.«144128_j10943576670580_2_alg».proof.Proof.Gen.ReferenceIdeal.Run
import proofs.«144128_j10943576670580_2_alg».proof.Proof.Gen.ReferenceIdeal.Read
import proofs.«144128_j10943576670580_2_alg».proof.Proof.KernelRun
import proofs.«144128_j10943576670580_2_alg».proof.Proof.RefScores
import proofs.«144128_j10943576670580_2_alg».proof.Proof.RefTail
import proofs.«144128_j10943576670580_2_alg».proof.Proof.Gen.Pre_finite_inputs
import Idealize.ShloMosaic.Adequacy
import Idealize.ShloMosaic.Init

noncomputable section

namespace Cert.Proof

open Idealize.ShloMosaic Idealize.SL.Sem Cert.Kernel

/-- The kernel's program runs and leaves its arguments as launched (the generated frame). -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the row softmax of the attention scores of those
    arguments: the kernel's by its run read tile by tile, the reference's by its run read operation by operation. -/
theorem algebraic : Cert.algebraic_KernelIdeal_ReferenceIdeal := by
  intro m ρ m' ρ' _ hagree
  refine ⟨fun c => Cert.KernelIdeal.Hand.rowSoftmax (Cert.Attn.scores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.Hand.ref_tail, Cert.ReferenceIdeal.Hand.ref_scores,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
